-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S16x64x64x64x25 : Shape := ⟨5, ![16, 64, 64, 64, 25]⟩
abbrev S256x1600 : Shape := ⟨2, ![256, 1600]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel
  bcast_S_S256x1600 : S_.BroadcastsInDim S256x1600 (![] : Fin 0 → Fin S256x1600.rank)
  reducesTo_S256x1600_S_d0_1 : S256x1600.ReducesTo [0, 1] S_

variable [Facts]

def fn {F : FTy → Type} [FloatOps F] (main_arg0 : FVec F S16x64x64x64 .f32) (main_arg1 : IVec S16x64x64x64x25 32) (main_arg2 : IVec S16x64x64x64x25 1) (main_arg3 : FVec F S256x1600 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S256x1600 .f32 := Host.absf main_arg3
  let main_cst_0 : FVec F S_ .f32 := constant S_ .f32 0x7F800000#32
  let main_v5 : FVec F S256x1600 .f32 := broadcastInDim S256x1600 ![] bcast_S_S256x1600 main_cst_0
  let main_v6 : IVec S256x1600 1 := cmpf .olt main_v4 main_v5
  let main_c_1 : IVec S_ 1 := constantI S_ 1 1#1
  let main_v7 : IVec S_ 1 := (fun x v => Host.reduce IntOp.andi x v reducesTo_S256x1600_S_d0_1 h_S_) main_v6 main_c_1
  let main_v8 : IVec S_ 1 := andi main_v3 main_v7
  main_v8
-- ==== Kernel.lean ====
abbrev S16x64x64x64 : Shape := ⟨4, ![16, 64, 64, 64]⟩
abbrev S16x64x64x64x25 : Shape := ⟨5, ![16, 64, 64, 64, 25]⟩
abbrev S256x1600 : Shape := ⟨2, ![256, 1600]⟩
abbrev S4194304 : Shape := ⟨1, ![4194304]⟩
abbrev S_ : Shape := ⟨0, ![]⟩
abbrev S16x64x64x64x25x1 : Shape := ⟨6, ![16, 64, 64, 64, 25, 1]⟩
abbrev S1 : Shape := ⟨1, ![1]⟩
abbrev S1x1x1x1x1x1 : Shape := ⟨6, ![1, 1, 1, 1, 1, 1]⟩
abbrev S64x25x16x64x64 : Shape := ⟨5, ![64, 25, 16, 64, 64]⟩
abbrev S1600x65536 : Shape := ⟨2, ![1600, 65536]⟩
abbrev S16x256x4096 : Shape := ⟨3, ![16, 256, 4096]⟩
abbrev S16x256x64x64 : Shape := ⟨4, ![16, 256, 64, 64]⟩
abbrev S1600x2048 : Shape := ⟨2, ![1600, 2048]⟩
abbrev S1x256x2048 : Shape := ⟨3, ![1, 256, 2048]⟩
abbrev S256x2048 : Shape := ⟨2, ![256, 2048]⟩

abbrev nBuf : Space → Nat
  | .hbm => 36
  | .vmem => 5
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64x25, .i32⟩
  | .hbm, ⟨2, _⟩ => ⟨S16x64x64x64x25, .i1⟩
  | .hbm, ⟨3, _⟩ => ⟨S256x1600, .f32⟩
  | .hbm, ⟨4, _⟩ => ⟨S4194304, .f32⟩
  | .hbm, ⟨5, _⟩ => ⟨S_, .i32⟩
  | .hbm, ⟨6, _⟩ => ⟨S16x64x64x64x25, .i32⟩
  | .hbm, ⟨7, _⟩ => ⟨S16x64x64x64x25, .i1⟩
  | .hbm, ⟨8, _⟩ => ⟨S_, .i32⟩
  | .hbm, ⟨9, _⟩ => ⟨S16x64x64x64x25, .i32⟩
  | .hbm, ⟨10, _⟩ => ⟨S16x64x64x64x25, .i32⟩
  | .hbm, ⟨11, _⟩ => ⟨S16x64x64x64x25, .i32⟩
  | .hbm, ⟨12, _⟩ => ⟨S16x64x64x64x25x1, .i32⟩
  | .hbm, ⟨13, _⟩ => ⟨S1, .i32⟩
  | .hbm, ⟨14, _⟩ => ⟨S_, .i32⟩
  | .hbm, ⟨15, _⟩ => ⟨S16x64x64x64x25x1, .i32⟩
  | .hbm, ⟨16, _⟩ => ⟨S16x64x64x64x25x1, .i1⟩
  | .hbm, ⟨17, _⟩ => ⟨S1x1x1x1x1x1, .i32⟩
  | .hbm, ⟨18, _⟩ => ⟨S16x64x64x64x25x1, .i32⟩
  | .hbm, ⟨19, _⟩ => ⟨S16x64x64x64x25x1, .i1⟩
  | .hbm, ⟨20, _⟩ => ⟨S16x64x64x64x25x1, .i1⟩
  | .hbm, ⟨21, _⟩ => ⟨S_, .i1⟩
  | .hbm, ⟨22, _⟩ => ⟨S16x64x64x64x25, .i1⟩
  | .hbm, ⟨23, _⟩ => ⟨S16x64x64x64x25, .f32⟩
  | .hbm, ⟨24, _⟩ => ⟨S_, .f32⟩
  | .hbm, ⟨25, _⟩ => ⟨S16x64x64x64x25, .f32⟩
  | .hbm, ⟨26, _⟩ => ⟨S16x64x64x64x25, .f32⟩
  | .hbm, ⟨27, _⟩ => ⟨S_, .f32⟩
  | .hbm, ⟨28, _⟩ => ⟨S16x64x64x64x25, .f32⟩
  | .hbm, ⟨29, _⟩ => ⟨S16x64x64x64x25, .f32⟩
  | .hbm, ⟨30, _⟩ => ⟨S16x64x64x64x25, .bf16⟩
  | .hbm, ⟨31, _⟩ => ⟨S64x25x16x64x64, .bf16⟩
  | .hbm, ⟨32, _⟩ => ⟨S1600x65536, .bf16⟩
  | .hbm, ⟨33, _⟩ => ⟨S256x1600, .bf16⟩
  | .hbm, ⟨34, _⟩ => ⟨S16x256x4096, .f32⟩
  | .hbm, ⟨35, _⟩ => ⟨S16x256x64x64, .f32⟩
  | .local _ .vmem, ⟨0, _⟩ => ⟨S256x1600, .bf16⟩
  | .local _ .vmem, ⟨1, _⟩ => ⟨S1600x2048, .bf16⟩
  | .local _ .vmem, ⟨2, _⟩ => ⟨S1600x2048, .bf16⟩
  | .local _ .vmem, ⟨3, _⟩ => ⟨S1x256x2048, .f32⟩
  | .local _ .vmem, ⟨4, _⟩ => ⟨S1x256x2048, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_c : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_c_0 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_c_1 : Ref sig .tc := ⟨.hbm, 13, rfl⟩
abbrev main_call0_call0_c_2 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_call0_c_3 : Ref sig .tc := ⟨.hbm, 21, rfl⟩
abbrev main_call0_call0_v12 : Ref sig .tc := ⟨.hbm, 22, rfl⟩
abbrev main_call0_call0_v13 : Ref sig .tc := ⟨.hbm, 23, rfl⟩
abbrev main_call0_call0_cst : Ref sig .tc := ⟨.hbm, 24, rfl⟩
abbrev main_call0_call0_v14 : Ref sig .tc := ⟨.hbm, 25, rfl⟩
abbrev main_call0_v1 : Ref sig .tc := ⟨.hbm, 26, rfl⟩
abbrev main_call0_cst : Ref sig .tc := ⟨.hbm, 27, rfl⟩
abbrev main_call0_call1_v0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_v0 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S256x1600 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1600x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x64x64x64_S4194304 : S16x64x64x64.ShapeCasts S4194304
  bcast_S_S16x64x64x64x25 : S_.BroadcastsInDim S16x64x64x64x25 (![] : Fin 0 → Fin S16x64x64x64x25.rank)
  bcast_S16x64x64x64x25_S16x64x64x64x25x1_0_1_2_3_4 : S16x64x64x64x25.BroadcastsInDim S16x64x64x64x25x1 (![0, 1, 2, 3, 4] : Fin 5 → Fin S16x64x64x64x25x1.rank)
  bcast_S_S16x64x64x64x25x1 : S_.BroadcastsInDim S16x64x64x64x25x1 (![] : Fin 0 → Fin S16x64x64x64x25x1.rank)
  bcast_S1_S1x1x1x1x1x1_5 : S1.BroadcastsInDim S1x1x1x1x1x1 (![5] : Fin 1 → Fin S1x1x1x1x1x1.rank)
  bcast_S1x1x1x1x1x1_S16x64x64x64x25x1_0_1_2_3_4_5 : S1x1x1x1x1x1.BroadcastsInDim S16x64x64x64x25x1 (![0, 1, 2, 3, 4, 5] : Fin 6 → Fin S16x64x64x64x25x1.rank)
  reducesTo_S16x64x64x64x25x1_S16x64x64x64x25_d5 : S16x64x64x64x25x1.ReducesTo [5] S16x64x64x64x25
  h_S_ : 0 < S_.numel
  bitsLt_bf16_f32 : FTy.bits .bf16 < FTy.bits .f32
  transposes_S16x64x64x64x25_S64x25x16x64x64_1_4_0_2_3 : S16x64x64x64x25.Transposes [1, 4, 0, 2, 3] S64x25x16x64x64
  shapeCasts_S64x25x16x64x64_S1600x65536 : S64x25x16x64x64.ShapeCasts S1600x65536
  shapeCasts_S16x256x4096_S16x256x64x64 : S16x256x4096.ShapeCasts S16x256x64x64
  inb_S256x1600_S256x1600_0_0 : ∀ a, (![0, 0] : Fin 2 → Nat) a + S256x1600.size a ≤ S256x1600.size a
  h_S256x1600 : 0 < S256x1600.numel
  shapeCasts_S256x1600_S256x1600 : S256x1600.ShapeCasts S256x1600
  inb_S1600x2048_S1600x2048_0_0 : ∀ a, (![0, 0] : Fin 2 → Nat) a + S1600x2048.size a ≤ S1600x2048.size a
  h_S1600x2048 : 0 < S1600x2048.numel
  shapeCasts_S1600x2048_S1600x2048 : S1600x2048.ShapeCasts S1600x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  gather_S4194304_S16x64x64x64x25x1_S16x64x64x64x25_n_0_n_n_0_5_1_wf : GatherDims.WF S4194304 S16x64x64x64x25x1 S16x64x64x64x25 [] [0] [] [0] [] 5 ![1]
  dot_S256x1600_S1600x2048_S256x2048_1_0_0_1_n_n_wf : DotDims.WF S256x1600 S1600x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1600.size a ≤ S256x1600.size a
  hwx0_0 : ∀ i : grid0.Coords, EltTy.bits .bf16 = 32 ∨ (Rect.block (s := S256x1600) S256x1600.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x2048.size a ≤ S1600x65536.size a
  hwx0_1 : ∀ i : grid0.Coords, EltTy.bits .bf16 = 32 ∨ (Rect.block (s := S1600x65536) S1600x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S16x256x4096.size a
  hwx0_2 : ∀ i : grid0.Coords, EltTy.bits .f32 = 32 ∨ (Rect.block (s := S16x256x4096) S1x256x2048.size (cc0_transform_2 i) (hinb0_2 i)).WholeWords (EltTy.packing .f32)

variable [Facts₀]

def gather_S4194304_S16x64x64x64x25x1_S16x64x64x64x25_n_0_n_n_0_5_1 : GatherDims S4194304 S16x64x64x64x25x1 S16x64x64x64x25 where
  offsetDims := []
  collapsedSliceDims := [0]
  operandBatchingDims := []
  startIndicesBatchingDims := []
  startIndexMap := [0]
  indexVectorDim := 5
  sliceSizes := ![1]
  wf := gather_S4194304_S16x64x64x64x25x1_S16x64x64x64x25_n_0_n_n_0_5_1_wf
def dot_S256x1600_S1600x2048_S256x2048_1_0_0_1_n_n : DotDims S256x1600 S1600x2048 S256x2048 where
  lhsContracting := [1]
  rhsContracting := [0]
  lhsNonContracting := [0]
  rhsNonContracting := [1]
  lhsBatch := []
  rhsBatch := []
  wf := dot_S256x1600_S1600x2048_S256x2048_1_0_0_1_n_n_wf

abbrev win0_0 : Pipeline.Window sig grid0 :=
  Pipeline.Window.ofSpec (Memref.whole main_call0_v6) S256x1600.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1600x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x64 : Shape := ⟨4, ![16, 64, 64, 64]⟩
abbrev S16x64x64x64x25 : Shape := ⟨5, ![16, 64, 64, 64, 25]⟩
abbrev S256x1600 : Shape := ⟨2, ![256, 1600]⟩
abbrev S4194304 : Shape := ⟨1, ![4194304]⟩
abbrev S_ : Shape := ⟨0, ![]⟩
abbrev S16x64x64x64x25x1 : Shape := ⟨6, ![16, 64, 64, 64, 25, 1]⟩
abbrev S1 : Shape := ⟨1, ![1]⟩
abbrev S1x1x1x1x1x1 : Shape := ⟨6, ![1, 1, 1, 1, 1, 1]⟩
abbrev S64x25x16x64x64 : Shape := ⟨5, ![64, 25, 16, 64, 64]⟩
abbrev S1600x65536 : Shape := ⟨2, ![1600, 65536]⟩
abbrev S256x65536 : Shape := ⟨2, ![256, 65536]⟩
abbrev S256x16x64x64 : Shape := ⟨4, ![256, 16, 64, 64]⟩
abbrev S16x256x64x64 : Shape := ⟨4, ![16, 256, 64, 64]⟩

abbrev nBuf : Space → Nat
  | .hbm => 35
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64x25, .i32⟩
  | .hbm, ⟨2, _⟩ => ⟨S16x64x64x64x25, .i1⟩
  | .hbm, ⟨3, _⟩ => ⟨S256x1600, .f32⟩
  | .hbm, ⟨4, _⟩ => ⟨S4194304, .f32⟩
  | .hbm, ⟨5, _⟩ => ⟨S_, .i32⟩
  | .hbm, ⟨6, _⟩ => ⟨S16x64x64x64x25, .i32⟩
  | .hbm, ⟨7, _⟩ => ⟨S16x64x64x64x25, .i1⟩
  | .hbm, ⟨8, _⟩ => ⟨S_, .i32⟩
  | .hbm, ⟨9, _⟩ => ⟨S16x64x64x64x25, .i32⟩
  | .hbm, ⟨10, _⟩ => ⟨S16x64x64x64x25, .i32⟩
  | .hbm, ⟨11, _⟩ => ⟨S16x64x64x64x25, .i32⟩
  | .hbm, ⟨12, _⟩ => ⟨S16x64x64x64x25x1, .i32⟩
  | .hbm, ⟨13, _⟩ => ⟨S1, .i32⟩
  | .hbm, ⟨14, _⟩ => ⟨S_, .i32⟩
  | .hbm, ⟨15, _⟩ => ⟨S16x64x64x64x25x1, .i32⟩
  | .hbm, ⟨16, _⟩ => ⟨S16x64x64x64x25x1, .i1⟩
  | .hbm, ⟨17, _⟩ => ⟨S1x1x1x1x1x1, .i32⟩
  | .hbm, ⟨18, _⟩ => ⟨S16x64x64x64x25x1, .i32⟩
  | .hbm, ⟨19, _⟩ => ⟨S16x64x64x64x25x1, .i1⟩
  | .hbm, ⟨20, _⟩ => ⟨S16x64x64x64x25x1, .i1⟩
  | .hbm, ⟨21, _⟩ => ⟨S_, .i1⟩
  | .hbm, ⟨22, _⟩ => ⟨S16x64x64x64x25, .i1⟩
  | .hbm, ⟨23, _⟩ => ⟨S16x64x64x64x25, .f32⟩
  | .hbm, ⟨24, _⟩ => ⟨S_, .f32⟩
  | .hbm, ⟨25, _⟩ => ⟨S16x64x64x64x25, .f32⟩
  | .hbm, ⟨26, _⟩ => ⟨S16x64x64x64x25, .f32⟩
  | .hbm, ⟨27, _⟩ => ⟨S_, .f32⟩
  | .hbm, ⟨28, _⟩ => ⟨S16x64x64x64x25, .f32⟩
  | .hbm, ⟨29, _⟩ => ⟨S16x64x64x64x25, .f32⟩
  | .hbm, ⟨30, _⟩ => ⟨S64x25x16x64x64, .f32⟩
  | .hbm, ⟨31, _⟩ => ⟨S1600x65536, .f32⟩
  | .hbm, ⟨32, _⟩ => ⟨S256x65536, .f32⟩
  | .hbm, ⟨33, _⟩ => ⟨S256x16x64x64, .f32⟩
  | .hbm, ⟨34, _⟩ => ⟨S16x256x64x64, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_cst : Ref sig .tc := ⟨.hbm, 27, rfl⟩
abbrev main_call1_v0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  shapeCasts_S16x64x64x64_S4194304 : S16x64x64x64.ShapeCasts S4194304
  bcast_S_S16x64x64x64x25 : S_.BroadcastsInDim S16x64x64x64x25 (![] : Fin 0 → Fin S16x64x64x64x25.rank)
  bcast_S16x64x64x64x25_S16x64x64x64x25x1_0_1_2_3_4 : S16x64x64x64x25.BroadcastsInDim S16x64x64x64x25x1 (![0, 1, 2, 3, 4] : Fin 5 → Fin S16x64x64x64x25x1.rank)
  bcast_S_S16x64x64x64x25x1 : S_.BroadcastsInDim S16x64x64x64x25x1 (![] : Fin 0 → Fin S16x64x64x64x25x1.rank)
  bcast_S1_S1x1x1x1x1x1_5 : S1.BroadcastsInDim S1x1x1x1x1x1 (![5] : Fin 1 → Fin S1x1x1x1x1x1.rank)
  bcast_S1x1x1x1x1x1_S16x64x64x64x25x1_0_1_2_3_4_5 : S1x1x1x1x1x1.BroadcastsInDim S16x64x64x64x25x1 (![0, 1, 2, 3, 4, 5] : Fin 6 → Fin S16x64x64x64x25x1.rank)
  reducesTo_S16x64x64x64x25x1_S16x64x64x64x25_d5 : S16x64x64x64x25x1.ReducesTo [5] S16x64x64x64x25
  h_S_ : 0 < S_.numel
  transposes_S16x64x64x64x25_S64x25x16x64x64_1_4_0_2_3 : S16x64x64x64x25.Transposes [1, 4, 0, 2, 3] S64x25x16x64x64
  shapeCasts_S64x25x16x64x64_S1600x65536 : S64x25x16x64x64.ShapeCasts S1600x65536
  shapeCasts_S256x65536_S256x16x64x64 : S256x65536.ShapeCasts S256x16x64x64
  transposes_S256x16x64x64_S16x256x64x64_1_0_2_3 : S256x16x64x64.Transposes [1, 0, 2, 3] S16x256x64x64
  gather_S4194304_S16x64x64x64x25x1_S16x64x64x64x25_n_0_n_n_0_5_1_wf : GatherDims.WF S4194304 S16x64x64x64x25x1 S16x64x64x64x25 [] [0] [] [0] [] 5 ![1]
  dot_S256x1600_S1600x65536_S256x65536_1_0_0_1_n_n_wf : DotDims.WF S256x1600 S1600x65536 S256x65536 [1] [0] [0] [1] [] []

variable [Facts₀]

def gather_S4194304_S16x64x64x64x25x1_S16x64x64x64x25_n_0_n_n_0_5_1 : GatherDims S4194304 S16x64x64x64x25x1 S16x64x64x64x25 where
  offsetDims := []
  collapsedSliceDims := [0]
  operandBatchingDims := []
  startIndicesBatchingDims := []
  startIndexMap := [0]
  indexVectorDim := 5
  sliceSizes := ![1]
  wf := gather_S4194304_S16x64x64x64x25x1_S16x64x64x64x25_n_0_n_n_0_5_1_wf
def dot_S256x1600_S1600x65536_S256x65536_1_0_0_1_n_n : DotDims S256x1600 S1600x65536 S256x65536 where
  lhsContracting := [1]
  rhsContracting := [0]
  lhsNonContracting := [0]
  rhsNonContracting := [1]
  lhsBatch := []
  rhsBatch := []
  wf := dot_S256x1600_S1600x65536_S256x65536_1_0_0_1_n_n_wf

class Facts : Prop extends Facts₀ where

variable [Facts]
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KernelBlock.lean ====
/-
  The kernel body's arithmetic at an index.  The body loads the whole weight block `x0` [256, 1600] and a
  block `x1` [1600, 2048] of the gathered values, multiplies them into a zero accumulator and stores the
  product as a [1, 256, 2048] block.  At the ideal values entry `(0, r, c)` of what it stores is

      Σ k < 1600, x0 (r, k) · x1 (k, c):

  the two casts of a block to its own shape are the identity, the cast that adds the leading unit axis reads
  `(0, r, c)` at `(r, c)`, and the product into zero is the plain sum over the contracted axis.
-/
import proofs.«118846_j86904368267933_2_alg».proof.Proof.Gen.KernelIdeal.Skeleton
import proofs.«118846_j86904368267933_2_alg».proof.Proof.LibDotRows
import Idealize.ShloMosaic.Lib.Pipeline.Value
import Idealize.ShloMosaic.Lib.ValueLayout

noncomputable section

open scoped BigOperators

namespace Cert.KernelIdeal.KVal

open Cert.KernelIdeal Cert.KernelIdeal.Gen Idealize.ShloMosaic Idealize.ShloMosaic.ValueIdx

/-- What the body stores, at `(u, r, c)` (`u` the unit axis' one coordinate). -/
theorem pay_ix3 (x0 : FVec Ideal S256x1600 .bf16) (x1 : FVec Ideal S1600x2048 .bf16) (u : Fin 1) (r : Fin 256) (cc : Fin 2048) :
    k0_pay1 (F := Ideal) x0 x1 (ix3 u r cc) = ∑ k : Fin 1600, x0 (ix2 r k) * x1 (ix2 k cc) := by
  unfold k0_pay1
  refine (shapeCast_ab_1ab_apply _ _ u r cc).trans ?_
  rw [shapeCast_self, shapeCast_self]
  exact matmul_zero_rows dot_S256x1600_S1600x2048_S256x2048_1_0_0_1_n_n none rfl rfl
    (fun _ _ => rfl) (fun _ _ => rfl) (fun _ _ => rfl) (fun _ _ => rfl) x0 x1 r cc

/-- The same at any index of the stored block. -/
theorem pay_apply (x0 : FVec Ideal S256x1600 .bf16) (x1 : FVec Ideal S1600x2048 .bf16) (y : S1x256x2048.Idx) :
    k0_pay1 (F := Ideal) x0 x1 y = ∑ k : Fin 1600, x0 (ix2 (y 1) k) * x1 (ix2 k (y 2)) := by
  rw [eq_ix3 y]
  exact pay_ix3 x0 x1 (y 0) (y 1) (y 2)

end Cert.KernelIdeal.KVal

end
-- ==== Proof.Spec.lean ====
/-
  What both programs compute, as one function of two arrays.  `W` is the weight matrix [256, 1600]; `C` is
  the matrix [1600, 65536] of gathered values, one row per (channel, tap) pair and one column per
  (batch, row, column) triple, the triple `(b, p, q)` at column `b · 4096 + p · 64 + q`.  The result
  [16, 256, 64, 64] at `(b, o, p, q)` is the inner product of row `o` of `W` with that column of `C`:

      out (b, o, p, q) = Σ k < 1600, W (o, k) · C (k, b · 4096 + p · 64 + q).

  No program is imported: the two programs' runs are each shown to end at this function.
-/
import Idealize.ShloMosaic.PureOps.Ideal
import Idealize.ShloMosaic.Lib.ValueIdx

noncomputable section

open scoped BigOperators

namespace Cert.HashConv

open Idealize.ShloMosaic Idealize.ShloMosaic.ValueIdx

/-- The column of `C` that holds batch `b`, output row `p`, output column `q`. -/
def colOf (b : Fin 16) (p : Fin 64) (q : Fin 64) : Fin 65536 :=
  ⟨b.val * 4096 + p.val * 64 + q.val, by have := b.isLt; have := p.isLt; have := q.isLt; omega⟩

theorem colOf_val (b : Fin 16) (p : Fin 64) (q : Fin 64) : (colOf b p q).val = b.val * 4096 + p.val * 64 + q.val := rfl

/-- One entry of the result: row `o` of `W` against column `(b, p, q)` of `C`. -/
def outAt (W : (⟨2, ![256, 1600]⟩ : Shape).Idx → EReal) (C : (⟨2, ![1600, 65536]⟩ : Shape).Idx → EReal)
    (b : Fin 16) (o : Fin 256) (p : Fin 64) (q : Fin 64) : EReal :=
  ∑ k : Fin 1600, W (ix2 o k) * C (ix2 k (colOf b p q))

/-- The result array. -/
def outSpec (W : (⟨2, ![256, 1600]⟩ : Shape).Idx → EReal) (C : (⟨2, ![1600, 65536]⟩ : Shape).Idx → EReal) :
    (⟨4, ![16, 256, 64, 64]⟩ : Shape).Idx → EReal :=
  fun i => outAt W C (i 0) (i 1) (i 2) (i 3)

theorem outSpec_ix4 (W : (⟨2, ![256, 1600]⟩ : Shape).Idx → EReal) (C : (⟨2, ![1600, 65536]⟩ : Shape).Idx → EReal)
    (b : Fin 16) (o : Fin 256) (p : Fin 64) (q : Fin 64) : outSpec W C (ix4 b o p q) = outAt W C b o p q := rfl

end Cert.HashConv

end
-- ==== Proof.SpecRows.lean ====
/-
  The same result before its last two axes are split.  The kernel's region writes an array [16, 256, 4096]:
  entry `(b, o, n)` is the inner product of row `o` of `W` with column `b · 4096 + n` of `C`.  Splitting
  `n = p · 64 + q` (a reshape keeps the row-major position) gives the specification's entry `(b, o, p, q)`.
-/
import proofs.«118846_j86904368267933_2_alg».proof.Proof.Spec
import Idealize.ShloMosaic.Lib.Pipeline.Value

noncomputable section

open scoped BigOperators

namespace Cert.HashConv

open Idealize.ShloMosaic Idealize.ShloMosaic.ValueIdx

/-- The column of `C` that holds batch `b`, flat position `n` of the 64 × 64 output plane. -/
def colAt (b : Fin 16) (n : Fin 4096) : Fin 65536 :=
  ⟨b.val * 4096 + n.val, by have := b.isLt; have := n.isLt; omega⟩

/-- The array the region writes. -/
def prod3 (W : (⟨2, ![256, 1600]⟩ : Shape).Idx → EReal) (C : (⟨2, ![1600, 65536]⟩ : Shape).Idx → EReal) :
    (⟨3, ![16, 256, 4096]⟩ : Shape).Idx → EReal :=
  fun i => ∑ k : Fin 1600, W (ix2 (i 1) k) * C (ix2 k (colAt (i 0) (i 2)))

/-- Its reshape to [16, 256, 64, 64] is the specification. -/
theorem shapeCast_prod3 (W : (⟨2, ![256, 1600]⟩ : Shape).Idx → EReal) (C : (⟨2, ![1600, 65536]⟩ : Shape).Idx → EReal)
    (h : (⟨3, ![16, 256, 4096]⟩ : Shape).ShapeCasts ⟨4, ![16, 256, 64, 64]⟩) :
    shapeCast ⟨4, ![16, 256, 64, 64]⟩ (prod3 W C) h = outSpec W C := by
  funext i
  obtain ⟨b, o, p, q, rfl⟩ : ∃ (b : Fin 16) (o : Fin 256) (p : Fin 64) (q : Fin 64), i = ix4 b o p q :=
    ⟨i 0, i 1, i 2, i 3, eq_ix4 i⟩
  rw [outSpec_ix4]
  have hn : p.val * 64 + q.val < 4096 := by have := p.isLt; have := q.isLt; omega
  refine (shapeCast_apply _ h (ix4 b o p q) (ix3 b o (⟨p.val * 64 + q.val, hn⟩ : Fin 4096)) ?_).trans ?_
  · rw [Shape.rowMajor_val_three, Shape.rowMajor_val_four]
    show (b.val * 256 + o.val) * 4096 + (p.val * 64 + q.val) = ((b.val * 256 + o.val) * 64 + p.val) * 64 + q.val
    omega
  · have hc : colAt b (⟨p.val * 64 + q.val, hn⟩ : Fin 4096) = colOf b p q := Fin.ext (by
      show b.val * 4096 + (p.val * 64 + q.val) = b.val * 4096 + p.val * 64 + q.val
      omega)
    show ∑ k : Fin 1600, W (ix2 o k) * C (ix2 k (colAt b (⟨p.val * 64 + q.val, hn⟩ : Fin 4096))) = outAt W C b o p q
    rw [hc]
    rfl

end Cert.HashConv

end
-- ==== Proof.KernelArray.lean ====
/-
  The array the region leaves, as one function of the two arrays it reads.  The grid has 16 × 2 points; at point
  `(b, j)` the body sees the whole weight matrix, columns `[(2 b + j) · 2048, (2 b + j + 1) · 2048)` of the gathered
  values, and writes rows `[0, 256)`, positions `[j · 2048, (j + 1) · 2048)` of batch `b` of the output.  Since
  `(2 b + j) · 2048 + c = b · 4096 + (j · 2048 + c)`, what a point writes back is its block of

      prod3 W C (b, o, n) = Σ k, W (o, k) · C (k, b · 4096 + n),

  and the 32 blocks tile the output, so the output array ends holding `prod3 W C`, with `W` and `C` the two input
  arrays as the region finds them.
-/
import proofs.«118846_j86904368267933_2_alg».proof.Proof.Gen.KernelIdeal.Frame
import proofs.«118846_j86904368267933_2_alg».proof.Proof.KernelBlock
import proofs.«118846_j86904368267933_2_alg».proof.Proof.SpecRows

set_option maxRecDepth 16384

noncomputable section

open scoped BigOperators

namespace Cert.KernelIdeal.KVal

open Cert.KernelIdeal Cert.KernelIdeal.Gen Idealize.ShloMosaic Idealize.ShloMosaic.TcCoe Idealize.ShloMosaic.ValueIdx
  Idealize.SL.Sem Cert.HashConv
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The index maps over the grid: the weights' block never moves; the values' block is on row-block 0 and on
    column-block twice the output's batch index plus the output's position-block; the output's channel-block is 0. -/
theorem index_facts : ∀ t : Fin cfg0.N, win0_0.index t (0 : Fin 2) = 0 ∧ win0_0.index t (1 : Fin 2) = 0
    ∧ win0_1.index t (0 : Fin 2) = 0
    ∧ win0_1.index t (1 : Fin 2) = 2 * win0_2.index t (0 : Fin 3) + win0_2.index t (2 : Fin 3)
    ∧ win0_2.index t (1 : Fin 3) = 0
    ∧ win0_2.index t (0 : Fin 3) ≤ 15 ∧ win0_2.index t (2 : Fin 3) ≤ 1 :=
  (by decide +kernel : ∀ t : Fin grid0.N, _)

/-- Every (batch, position-block) pair is some point's output block. -/
theorem index_onto : ∀ (q0 : Fin 16) (q2 : Fin 2), ∃ t : Fin cfg0.N, win0_2.index t = ![q0.val, 0, q2.val] :=
  (by decide +kernel : ∀ (q0 : Fin 16) (q2 : Fin 2), ∃ t : Fin grid0.N, win0_2.index t = ![q0.val, 0, q2.val])

/-- What point `t` writes back is block `t` of `prod3` of the two input arrays as the region finds them. -/
theorem flushed_eq (c : Dev nD) (t : Fin cfg0.N) :
    (dats m 0 c).flushed 2 t
      = ((cfg0.win 2).blk t).view.read (Elt Ideal) (prod3 (V m c main_call0_v6) (V m c main_call0_v5)) := by
  show (cfg0.win 2).cut (grid0.coords t) ((dats m 0 c).after 2 t) = _
  rw [after0_2]
  unfold out0_2
  rw [View.canon_unit_zero zero3]
  simp only [View.ld_unit_zero (S := S256x1600) zero2, View.ld_unit_zero (S := S1600x2048) zero2]
  obtain ⟨e00, e01, e10, e11, e21, h20, h22⟩ := index_facts t
  funext y
  refine (pay_apply (iblk m c 0 t) (iblk m c 1 t) y).trans ?_
  show _ = prod3 (V m c main_call0_v6) (V m c main_call0_v5) (((cfg0.win 2).blk t).view.emb y)
  unfold prod3
  refine Finset.sum_congr rfl fun k _ => ?_
  have hy0 : (y 0).val < 1 := (y 0).isLt
  have hy1 : (y 1).val < 256 := (y 1).isLt
  have hy2 : (y 2).val < 2048 := (y 2).isLt
  -- the weights' block is the whole array
  have a0 : iblk m c 0 t (ix2 (y 1) k) = V m c main_call0_v6 (ix2 ((((cfg0.win 2).blk t).view.emb y) 1) k) := by
    show V m c main_call0_v6 (((cfg0.win 0).blk t).view.emb (ix2 (y 1) k)) = _
    refine congrArg _ (funext fun a => Fin.ext ?_)
    match a with
    | ⟨0, _⟩ =>
      show win0_0.index t (0 : Fin 2) * 256 + 1 * (y 1).val = win0_2.index t (1 : Fin 3) * 256 + 1 * (y 1).val
      omega
    | ⟨1, _⟩ =>
      show win0_0.index t (1 : Fin 2) * 1600 + 1 * k.val = k.val
      omega
  -- the values' block read at column `c` is the array at column (2 b + j) · 2048 + c = b · 4096 + (j · 2048 + c)
  have a1 : iblk m c 1 t (ix2 k (y 2))
      = V m c main_call0_v5 (ix2 k (colAt ((((cfg0.win 2).blk t).view.emb y) 0) ((((cfg0.win 2).blk t).view.emb y) 2))) := by
    show V m c main_call0_v5 (((cfg0.win 1).blk t).view.emb (ix2 k (y 2))) = _
    refine congrArg _ (funext fun a => Fin.ext ?_)
    match a with
    | ⟨0, _⟩ =>
      show win0_1.index t (0 : Fin 2) * 1600 + 1 * k.val = k.val
      omega
    | ⟨1, _⟩ =>
      show win0_1.index t (1 : Fin 2) * 2048 + 1 * (y 2).val
        = (win0_2.index t (0 : Fin 3) * 1 + 1 * (y 0).val) * 4096 + (win0_2.index t (2 : Fin 3) * 2048 + 1 * (y 2).val)
      omega
  rw [a0, a1]

/-- An index of the output array is in point `t`'s block iff each coordinate is in the block's range on its axis. -/
theorem mem_blk (t : Fin cfg0.N) (i : S16x256x4096.Idx) :
    i ∈ ((cfg0.win 2).blk t).view.set ↔ ∀ a : Fin 3, win0_2.index t a * S1x256x2048.size a ≤ (i a).val
      ∧ (i a).val < win0_2.index t a * S1x256x2048.size a + S1x256x2048.size a := by
  show i ∈ ((View.whole main_call0_v7).slice (win0_2.rect t)).set ↔ _
  rw [View.set_slice_whole, Rect.mem_set_unit]
  exact Iff.rfl

/-- The blocks tile the output: index `(b, o, n)` is in the block of the point at batch `b`, position-block `n / 2048`. -/
theorem cover (i : S16x256x4096.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 4096 := (i 2).isLt
  obtain ⟨t, ht⟩ := index_onto ⟨(i 0).val, hi0⟩ ⟨(i 2).val / 2048, by omega⟩
  have q0 : win0_2.index t (0 : Fin 3) = (i 0).val := congrFun ht 0
  have q1 : win0_2.index t (1 : Fin 3) = 0 := congrFun ht 1
  have q2 : win0_2.index t (2 : Fin 3) = (i 2).val / 2048 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 2048 ≤ (i 2).val ∧ (i 2).val < win0_2.index t (2 : Fin 3) * 2048 + 2048
    omega

/-- The output array after the region. -/
theorem final (c : Dev nD) :
    (dats m 0 c).arrAt 2 cfg0.N = prod3 (V m c main_call0_v6) (V m c main_call0_v5) :=
  (dats m 0 c).arrAt_eq_of_cover 2 _ (fun t _ => flushed_eq m c t) cover

end Cert.KernelIdeal.KVal

end
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.KernelRun.lean ====
/-
  The idealized kernel's run, read.  Before the region @main computes the masked gather `gsel x h z` (the same
  twenty-six operations as the reference, in this program's buffers), lays it out as `cols` — here through a
  change of float format, which at the ideal values is the identity — and changes the weights' format likewise.
  The region leaves `prod3 W C` of those two arrays in its output array, and the one operation after the region
  reshapes it to [16, 256, 64, 64]: the specification `outSpec w (cols (gsel x h z))` of the four arguments.
-/
import proofs.«118846_j86904368267933_2_alg».proof.Proof.KernelArray
import proofs.«118846_j86904368267933_2_alg».proof.Proof.LibAfter
import proofs.«118846_j86904368267933_2_alg».proof.Proof.LibTRef
import Idealize.ShloMosaic.Lib.StableHlo.Run

set_option maxRecDepth 16384

noncomputable section

open scoped BigOperators

namespace Cert.KernelIdeal.KVal

open Cert.KernelIdeal Cert.KernelIdeal.Gen Idealize.ShloMosaic Idealize.ShloMosaic.TcCoe Idealize.ShloMosaic.ValueIdx
  Idealize.SL.Sem Idealize.ShloMosaic.StableHlo Cert.HashConv
open Idealize.ShloMosaic.Pipeline (Dat)

section Prefix

variable {F : FTy → Type} [FloatOps F]

/-- The masked gather, [16, 64, 64, 64, 25]: entry `(b, c, p, q, l)` is zero where the mask is set and
    otherwise the flattened `x` at the wrapped index `h (b, c, p, q, l)`, the filler word when that index
    is out of range. -/
def gsel (x : (⟨S16x64x64x64, .f32⟩ : BufTy).Contents (Elt F)) (h : (⟨S16x64x64x64x25, .i32⟩ : BufTy).Contents (Elt F))
    (z : (⟨S16x64x64x64x25, .i1⟩ : BufTy).Contents (Elt F)) : (⟨S16x64x64x64x25, .f32⟩ : BufTy).Contents (Elt F) :=
  select z (broadcastInDim S16x64x64x64x25 ![] bcast_S_S16x64x64x64x25 (constant S_ .f32 0x00000000#32))
    (select
      (Host.reduce IntOp.andi
        (andi
          (cmpi .sge
            (broadcastInDim S16x64x64x64x25x1 ![0, 1, 2, 3, 4] bcast_S16x64x64x64x25_S16x64x64x64x25x1_0_1_2_3_4
              (select (cmpi .slt h (broadcastInDim S16x64x64x64x25 ![] bcast_S_S16x64x64x64x25 (constantI S_ 32 0#32)))
                (addi h (broadcastInDim S16x64x64x64x25 ![] bcast_S_S16x64x64x64x25 (constantI S_ 32 4194304#32))) h))
            (broadcastInDim S16x64x64x64x25x1 ![] bcast_S_S16x64x64x64x25x1 (constantI S_ 32 0#32)))
          (cmpi .sle
            (broadcastInDim S16x64x64x64x25x1 ![0, 1, 2, 3, 4] bcast_S16x64x64x64x25_S16x64x64x64x25x1_0_1_2_3_4
              (select (cmpi .slt h (broadcastInDim S16x64x64x64x25 ![] bcast_S_S16x64x64x64x25 (constantI S_ 32 0#32)))
                (addi h (broadcastInDim S16x64x64x64x25 ![] bcast_S_S16x64x64x64x25 (constantI S_ 32 4194304#32))) h))
            (broadcastInDim S16x64x64x64x25x1 ![0, 1, 2, 3, 4, 5] bcast_S1x1x1x1x1x1_S16x64x64x64x25x1_0_1_2_3_4_5
              (broadcastInDim S1x1x1x1x1x1 ![5] bcast_S1_S1x1x1x1x1x1_5 (constantI S1 32 4194303#32)))))
        (constantI S_ 1 1#1) reducesTo_S16x64x64x64x25x1_S16x64x64x64x25_d5 h_S_)
      (Host.gather gather_S4194304_S16x64x64x64x25x1_S16x64x64x64x25_n_0_n_n_0_5_1
        (shapeCast S4194304 x shapeCasts_S16x64x64x64_S4194304)
        (broadcastInDim S16x64x64x64x25x1 ![0, 1, 2, 3, 4] bcast_S16x64x64x64x25_S16x64x64x64x25x1_0_1_2_3_4
          (select (cmpi .slt h (broadcastInDim S16x64x64x64x25 ![] bcast_S_S16x64x64x64x25 (constantI S_ 32 0#32)))
            (addi h (broadcastInDim S16x64x64x64x25 ![] bcast_S_S16x64x64x64x25 (constantI S_ 32 4194304#32))) h)))
      (broadcastInDim S16x64x64x64x25 ![] bcast_S_S16x64x64x64x25 (constant S_ .f32 0x7FC00000#32)))

/-- The gathered values laid out for the product, their float format changed first: axes (channel, tap) in front,
    merged to 1600 rows; axes (batch, row, column) behind, merged to 65536 columns. -/
def cols (g : (⟨S16x64x64x64x25, .f32⟩ : BufTy).Contents (Elt F)) : (⟨S1600x65536, .bf16⟩ : BufTy).Contents (Elt F) :=
  shapeCast S1600x65536
    (transpose S64x25x16x64x64 [1, 4, 0, 2, 3] (truncf .bf16 g bitsLt_bf16_f32) transposes_S16x64x64x64x25_S64x25x16x64x64_1_4_0_2_3)
    shapeCasts_S64x25x16x64x64_S1600x65536

/-- The host operations before the region up to and including the mask's select: they compute the masked gather. -/
abbrev opsGK : List (HloOp τ sig (Elt F)) :=
  [ TRef.reshape (.of main_arg0 : TRef sig ⟨S16x64x64x64, .f32⟩) main_call0.v0 rfl shapeCasts_S16x64x64x64_S4194304,
    TRef.nullary main_call0.call0.c (constantI S_ 32 0#32),
    TRef.unary main_call0.call0.c main_call0.call0.v0 (broadcastInDim S16x64x64x64x25 ![] bcast_S_S16x64x64x64x25),
    TRef.binary (.of main_arg1 : TRef sig ⟨S16x64x64x64x25, .i32⟩) main_call0.call0.v0 main_call0.call0.v1 (cmpi .slt),
    TRef.nullary main_call0.call0.c_0 (constantI S_ 32 4194304#32),
    TRef.unary main_call0.call0.c_0 main_call0.call0.v2 (broadcastInDim S16x64x64x64x25 ![] bcast_S_S16x64x64x64x25),
    TRef.binary (.of main_arg1 : TRef sig ⟨S16x64x64x64x25, .i32⟩) main_call0.call0.v2 main_call0.call0.v3 addi,
    TRef.ternary main_call0.call0.v1 main_call0.call0.v3 (.of main_arg1 : TRef sig ⟨S16x64x64x64x25, .i32⟩) main_call0.call0.call0.v0 select,
    TRef.unary main_call0.call0.call0.v0 main_call0.call0.v5 (broadcastInDim S16x64x64x64x25x1 ![0, 1, 2, 3, 4] bcast_S16x64x64x64x25_S16x64x64x64x25x1_0_1_2_3_4),
    TRef.nullary main_call0.call0.c_1 (constantI S1 32 4194303#32),
    TRef.nullary main_call0.call0.c_2 (constantI S_ 32 0#32),
    TRef.unary main_call0.call0.c_2 main_call0.call0.v6 (broadcastInDim S16x64x64x64x25x1 ![] bcast_S_S16x64x64x64x25x1),
    TRef.binary main_call0.call0.v5 main_call0.call0.v6 main_call0.call0.v7 (cmpi .sge),
    TRef.unary main_call0.call0.c_1 main_call0.call0.v8 (broadcastInDim S1x1x1x1x1x1 ![5] bcast_S1_S1x1x1x1x1x1_5),
    TRef.unary main_call0.call0.v8 main_call0.call0.v9 (broadcastInDim S16x64x64x64x25x1 ![0, 1, 2, 3, 4, 5] bcast_S1x1x1x1x1x1_S16x64x64x64x25x1_0_1_2_3_4_5),
    TRef.binary main_call0.call0.v5 main_call0.call0.v9 main_call0.call0.v10 (cmpi .sle),
    TRef.binary main_call0.call0.v7 main_call0.call0.v10 main_call0.call0.v11 andi,
    TRef.nullary main_call0.call0.c_3 (constantI S_ 1 1#1),
    TRef.binary main_call0.call0.v11 main_call0.call0.c_3 main_call0.call0.v12 (fun x v => Host.reduce IntOp.andi x v reducesTo_S16x64x64x64x25x1_S16x64x64x64x25_d5 h_S_),
    TRef.binary main_call0.v0 main_call0.call0.v5 main_call0.call0.v13 (fun x i => Host.gather gather_S4194304_S16x64x64x64x25x1_S16x64x64x64x25_n_0_n_n_0_5_1 x i),
    TRef.nullary main_call0.call0.cst (constant S_ .f32 0x7FC00000#32),
    TRef.unary main_call0.call0.cst main_call0.call0.v14 (broadcastInDim S16x64x64x64x25 ![] bcast_S_S16x64x64x64x25),
    TRef.ternary main_call0.call0.v12 main_call0.call0.v13 main_call0.call0.v14 main_call0.call0.v15 select,
    TRef.nullary main_call0.cst (constant S_ .f32 0x00000000#32),
    TRef.unary main_call0.cst main_call0.call1.v0 (broadcastInDim S16x64x64x64x25 ![] bcast_S_S16x64x64x64x25),
    TRef.ternary (.of main_arg2 : TRef sig ⟨S16x64x64x64x25, .i1⟩) main_call0.call1.v0 main_call0.call0.v15 main_call0.call1.v1 select ]

/-- The host operations after it, before the region: the values' format change and layout, the weights' format change. -/
abbrev opsTK : List (HloOp τ sig (Elt F)) :=
  [ TRef.unary main_call0.call1.v1 main_call0.v3 (truncf .bf16 · bitsLt_bf16_f32),
    TRef.unary main_call0.v3 main_call0.v4 (transpose S64x25x16x64x64 [1, 4, 0, 2, 3] · transposes_S16x64x64x64x25_S64x25x16x64x64_1_4_0_2_3),
    TRef.reshape main_call0.v4 main_call0.v5 rfl shapeCasts_S64x25x16x64x64_S1600x65536,
    TRef.unary (.of main_arg3 : TRef sig ⟨S256x1600, .f32⟩) main_call0.v6 (truncf .bf16 · bitsLt_bf16_f32) ]

/-- The host line before the region is the two parts one after the other. -/
theorem hostOps0_split : (hostOps0 : List (HloOp τ sig (Elt F))) = opsGK ++ opsTK := rfl

/-- After the second part the values' array holds the layout of the buffer the masked gather was left in, -/
theorem tailK_v5 (V : Valuation τ sig (Elt F)) :
    after opsTK V (main_call0_v5 : DevRef τ sig) = cols (V (main_call0_v2 : DevRef τ sig)) := by
  unfold cols
  after_results_simp
  simp only [TRef.ofBuf_toBuf]
  rfl

/-- and the weights' array the weights in the other format. -/
theorem tailK_v6 (V : Valuation τ sig (Elt F)) :
    after opsTK V (main_call0_v6 : DevRef τ sig) = truncf .bf16 (V (main_arg3 : DevRef τ sig)) bitsLt_bf16_f32 := by
  after_results
  rfl

attribute [local irreducible] Host.reduce Host.gather in
/-- After the first part its last buffer holds the masked gather of the first three arguments. -/
theorem headK_v2 (V : Valuation τ sig (Elt F)) :
    after opsGK V (main_call0_v2 : DevRef τ sig)
      = gsel (V (main_arg0 : DevRef τ sig)) (V (main_arg1 : DevRef τ sig)) (V (main_arg2 : DevRef τ sig)) := by
  unfold gsel
  after_results_simp
  simp only [TRef.ofBuf_toBuf]
  rfl

/-- The first part does not write the weights. -/
theorem headK_arg3 (V : Valuation τ sig (Elt F)) : after opsGK V (main_arg3 : DevRef τ sig) = V (main_arg3 : DevRef τ sig) := by
  after_results_simp

end Prefix

variable (m : (ℓ : Loc nD τ sig) → Buf (Elt Ideal) ℓ)

/-- The values' array as the region finds it. -/
theorem V_cols (c : Dev nD) :
    V m c main_call0_v5
      = cols (gsel (m ((c : Thread nD τ).loc main_arg0)) (m ((c : Thread nD τ).loc main_arg1)) (m ((c : Thread nD τ).loc main_arg2))) := by
  show StableHlo.after hostOps0 (fun b => m (c, b)) (Proc.devRef .tc main_call0_v5) = _
  rw [hostOps0_split, after_append, tailK_v5, headK_v2]

/-- The weights' array as the region finds it: at the ideal values a change of format is the identity. -/
theorem V_w (c : Dev nD) : V m c main_call0_v6 = m ((c : Thread nD τ).loc main_arg3) := by
  show StableHlo.after hostOps0 (fun b => m (c, b)) (Proc.devRef .tc main_call0_v6) = _
  rw [hostOps0_split, after_append, tailK_v6, headK_arg3]
  rfl

/-- The result buffer after the operation that follows the region: the region's output array, reshaped. -/
theorem tail_eq (c : Dev nD) :
    Pipeline.afterTail₀ cfgs (dats m) 0 (V0 m) [hostOps1] c main_v0
      = shapeCast S16x256x64x64 ((dats m 0 c).arrAt 2 cfg0.N) shapeCasts_S16x256x4096_S16x256x64x64 := by
  unfold Pipeline.afterTail₀
  show StableHlo.after hostOps1 _ (Proc.devRef .tc main_v0) = _
  after_results
  exact congrArg (fun a => shapeCast S16x256x64x64 a shapeCasts_S16x256x4096_S16x256x64x64)
    (Pipeline.withArrays_arr spec0 launch0.win.arr_inj c _ _ 2)

/-- The result buffer after the run is the specification of the weights and the laid-out masked gather. -/
theorem value (c : Dev nD) :
    Pipeline.afterTail₀ cfgs (dats m) 0 (V0 m) [hostOps1] c main_v0
      = outSpec (m ((c : Thread nD τ).loc main_arg3))
          (cols (gsel (m ((c : Thread nD τ).loc main_arg0)) (m ((c : Thread nD τ).loc main_arg1)) (m ((c : Thread nD τ).loc main_arg2)))) := by
  rw [tail_eq, final, V_w, V_cols]
  exact shapeCast_prod3 _ _ _

/-- Every weakly fair execution of the idealized kernel's @main terminates, the result buffer at the specification,
    the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0)
          = outSpec (m ((c.tc : Thread nD τ).loc main_arg3))
              (cols (gsel (m ((c.tc : Thread nD τ).loc main_arg0)) (m ((c.tc : Thread nD τ).loc main_arg1))
                (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v0 (Pipeline.mem_restRefs_of main_v0 (by decide) (by decide))).trans (value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KVal

end
-- ==== Proof.RefRun.lean ====
/-
  The reference program's run, read back.  Its @main is a straight line of thirty-one host operations
  once the three functions jax outlined (the index wrap of `take`, `take` itself, the mask's `where`) are
  written at their call sites over the calls' buffer records.  Every weakly fair execution terminates with
  the result buffer holding

      transpose (reshape (W · cols))            W = the weights, [256, 1600]
      cols = reshape (transpose (gsel x h z))   [1600, 65536]

  where `gsel x h z` is the masked gather: the flattened `x` read at the wrapped index `h` (an index
  below zero has the extent 4194304 added; one still outside [0, 4194303] reads the filler word), then
  replaced by zero wherever the mask `z` is set.  `gsel` is named here once and never opened: the kernel's
  program applies the same operations to the same arguments.
-/
import proofs.«118846_j86904368267933_2_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem
  Idealize.ShloMosaic.StableHlo

variable {F : FTy → Type} [FloatOps F]

/-- The masked gather, [16, 64, 64, 64, 25]: entry `(b, c, p, q, l)` is zero where the mask is set and
    otherwise the flattened `x` at the wrapped index `h (b, c, p, q, l)`, the filler word when that index
    is out of range. -/
def gsel (x : (⟨S16x64x64x64, .f32⟩ : BufTy).Contents (Elt F)) (h : (⟨S16x64x64x64x25, .i32⟩ : BufTy).Contents (Elt F))
    (z : (⟨S16x64x64x64x25, .i1⟩ : BufTy).Contents (Elt F)) : (⟨S16x64x64x64x25, .f32⟩ : BufTy).Contents (Elt F) :=
  select z (broadcastInDim S16x64x64x64x25 ![] bcast_S_S16x64x64x64x25 (constant S_ .f32 0x00000000#32))
    (select
      (Host.reduce IntOp.andi
        (andi
          (cmpi .sge
            (broadcastInDim S16x64x64x64x25x1 ![0, 1, 2, 3, 4] bcast_S16x64x64x64x25_S16x64x64x64x25x1_0_1_2_3_4
              (select (cmpi .slt h (broadcastInDim S16x64x64x64x25 ![] bcast_S_S16x64x64x64x25 (constantI S_ 32 0#32)))
                (addi h (broadcastInDim S16x64x64x64x25 ![] bcast_S_S16x64x64x64x25 (constantI S_ 32 4194304#32))) h))
            (broadcastInDim S16x64x64x64x25x1 ![] bcast_S_S16x64x64x64x25x1 (constantI S_ 32 0#32)))
          (cmpi .sle
            (broadcastInDim S16x64x64x64x25x1 ![0, 1, 2, 3, 4] bcast_S16x64x64x64x25_S16x64x64x64x25x1_0_1_2_3_4
              (select (cmpi .slt h (broadcastInDim S16x64x64x64x25 ![] bcast_S_S16x64x64x64x25 (constantI S_ 32 0#32)))
                (addi h (broadcastInDim S16x64x64x64x25 ![] bcast_S_S16x64x64x64x25 (constantI S_ 32 4194304#32))) h))
            (broadcastInDim S16x64x64x64x25x1 ![0, 1, 2, 3, 4, 5] bcast_S1x1x1x1x1x1_S16x64x64x64x25x1_0_1_2_3_4_5
              (broadcastInDim S1x1x1x1x1x1 ![5] bcast_S1_S1x1x1x1x1x1_5 (constantI S1 32 4194303#32)))))
        (constantI S_ 1 1#1) reducesTo_S16x64x64x64x25x1_S16x64x64x64x25_d5 h_S_)
      (Host.gather gather_S4194304_S16x64x64x64x25x1_S16x64x64x64x25_n_0_n_n_0_5_1
        (shapeCast S4194304 x shapeCasts_S16x64x64x64_S4194304)
        (broadcastInDim S16x64x64x64x25x1 ![0, 1, 2, 3, 4] bcast_S16x64x64x64x25_S16x64x64x64x25x1_0_1_2_3_4
          (select (cmpi .slt h (broadcastInDim S16x64x64x64x25 ![] bcast_S_S16x64x64x64x25 (constantI S_ 32 0#32)))
            (addi h (broadcastInDim S16x64x64x64x25 ![] bcast_S_S16x64x64x64x25 (constantI S_ 32 4194304#32))) h)))
      (broadcastInDim S16x64x64x64x25 ![] bcast_S_S16x64x64x64x25 (constant S_ .f32 0x7FC00000#32)))

/-- The gathered values laid out for the product: axes (channel, tap) in front, merged to 1600 rows;
    axes (batch, row, column) behind, merged to 65536 columns. -/
def cols (g : (⟨S16x64x64x64x25, .f32⟩ : BufTy).Contents (Elt F)) : (⟨S1600x65536, .f32⟩ : BufTy).Contents (Elt F) :=
  shapeCast S1600x65536 (transpose S64x25x16x64x64 [1, 4, 0, 2, 3] g transposes_S16x64x64x64x25_S64x25x16x64x64_1_4_0_2_3)
    shapeCasts_S64x25x16x64x64_S1600x65536

/-- The reference's result of the weights `w` and the laid-out values `cl`: the product [256, 65536], its columns
    split back into (batch, row, column), the batch axis moved in front. -/
def refOut (w : (⟨S256x1600, .f32⟩ : BufTy).Contents (Elt F)) (cl : (⟨S1600x65536, .f32⟩ : BufTy).Contents (Elt F)) :
    (⟨S16x256x64x64, .f32⟩ : BufTy).Contents (Elt F) :=
  transpose S16x256x64x64 [1, 0, 2, 3]
    (shapeCast S256x16x64x64 (Host.dotGeneral dot_S256x1600_S1600x65536_S256x65536_1_0_0_1_n_n none w cl)
      shapeCasts_S256x65536_S256x16x64x64)
    transposes_S256x16x64x64_S16x256x64x64_1_0_2_3

/-- @main's thirty-one operations, in order, the outlined functions' lines at their call sites over the calls'
    buffer records. -/
abbrev ops : List (HloOp τ sig (Elt F)) :=
  [ reshape main_arg0 main_v0 rfl shapeCasts_S16x64x64x64_S4194304,
    TRef.nullary main_call0.c (constantI S_ 32 0#32),
    TRef.unary main_call0.c main_call0.v0 (broadcastInDim S16x64x64x64x25 ![] bcast_S_S16x64x64x64x25),
    TRef.binary (.of main_arg1 : TRef sig ⟨S16x64x64x64x25, .i32⟩) main_call0.v0 main_call0.v1 (cmpi .slt),
    TRef.nullary main_call0.c_0 (constantI S_ 32 4194304#32),
    TRef.unary main_call0.c_0 main_call0.v2 (broadcastInDim S16x64x64x64x25 ![] bcast_S_S16x64x64x64x25),
    TRef.binary (.of main_arg1 : TRef sig ⟨S16x64x64x64x25, .i32⟩) main_call0.v2 main_call0.v3 addi,
    TRef.ternary main_call0.v1 main_call0.v3 (.of main_arg1 : TRef sig ⟨S16x64x64x64x25, .i32⟩) main_call0.call0.v0 select,
    TRef.unary main_call0.call0.v0 main_call0.v5 (broadcastInDim S16x64x64x64x25x1 ![0, 1, 2, 3, 4] bcast_S16x64x64x64x25_S16x64x64x64x25x1_0_1_2_3_4),
    TRef.nullary main_call0.c_1 (constantI S1 32 4194303#32),
    TRef.nullary main_call0.c_2 (constantI S_ 32 0#32),
    TRef.unary main_call0.c_2 main_call0.v6 (broadcastInDim S16x64x64x64x25x1 ![] bcast_S_S16x64x64x64x25x1),
    TRef.binary main_call0.v5 main_call0.v6 main_call0.v7 (cmpi .sge),
    TRef.unary main_call0.c_1 main_call0.v8 (broadcastInDim S1x1x1x1x1x1 ![5] bcast_S1_S1x1x1x1x1x1_5),
    TRef.unary main_call0.v8 main_call0.v9 (broadcastInDim S16x64x64x64x25x1 ![0, 1, 2, 3, 4, 5] bcast_S1x1x1x1x1x1_S16x64x64x64x25x1_0_1_2_3_4_5),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x64x64x64x25x1_S16x64x64x64x25_d5 h_S_),
    TRef.binary (.of main_v0 : TRef sig ⟨S4194304, .f32⟩) main_call0.v5 main_call0.v13 (fun x i => Host.gather gather_S4194304_S16x64x64x64x25x1_S16x64x64x64x25_n_0_n_n_0_5_1 x i),
    TRef.nullary main_call0.cst (constant S_ .f32 0x7FC00000#32),
    TRef.unary main_call0.cst main_call0.v14 (broadcastInDim S16x64x64x64x25 ![] bcast_S_S16x64x64x64x25),
    TRef.ternary main_call0.v12 main_call0.v13 main_call0.v14 main_call0.v15 select,
    nullary main_cst (constant S_ .f32 0x00000000#32),
    TRef.unary (.of main_cst : TRef sig ⟨S_, .f32⟩) main_call1.v0 (broadcastInDim S16x64x64x64x25 ![] bcast_S_S16x64x64x64x25),
    TRef.ternary (.of main_arg2 : TRef sig ⟨S16x64x64x64x25, .i1⟩) main_call1.v0 (.of main_v1 : TRef sig ⟨S16x64x64x64x25, .f32⟩) main_call1.v1 select,
    unary main_v2 main_v3 ((transpose S64x25x16x64x64 [1, 4, 0, 2, 3] · transposes_S16x64x64x64x25_S64x25x16x64x64_1_4_0_2_3) : (⟨S16x64x64x64x25, .f32⟩ : BufTy).Contents (Elt F) → (⟨S64x25x16x64x64, .f32⟩ : BufTy).Contents (Elt F)),
    reshape main_v3 main_v4 rfl shapeCasts_S64x25x16x64x64_S1600x65536,
    binary main_arg3 main_v4 main_v5 ((fun l r => Host.dotGeneral dot_S256x1600_S1600x65536_S256x65536_1_0_0_1_n_n none l r) : (⟨S256x1600, .f32⟩ : BufTy).Contents (Elt F) → (⟨S1600x65536, .f32⟩ : BufTy).Contents (Elt F) → (⟨S256x65536, .f32⟩ : BufTy).Contents (Elt F)),
    reshape main_v5 main_v6 rfl shapeCasts_S256x65536_S256x16x64x64,
    unary main_v6 main_v7 ((transpose S16x256x64x64 [1, 0, 2, 3] · transposes_S256x16x64x64_S16x256x64x64_1_0_2_3) : (⟨S256x16x64x64, .f32⟩ : BufTy).Contents (Elt F) → (⟨S16x256x64x64, .f32⟩ : BufTy).Contents (Elt F)) ]

set_option maxRecDepth 16384 in
/-- @main is that straight line: the outlined functions unfolded at their calls, the sequencing reassociated. -/
theorem main_eq (c : Dev nD) : main (F := F) c = seq ops := by
  simp only [main, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., nullary_bufs_sub ..,
    unary_bufs_sub .., ternary_bufs_sub .., unary_bufs_sub .., reshape_bufs_sub .., binary_bufs_sub .., reshape_bufs_sub ..,
    unary_bufs_sub ..⟩

/-- Every weakly fair execution of the reference's @main terminates, every TensorCore buffer at the fold of the
    thirty-one operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefVal

end
-- ==== Proof.RefRead.lean ====
/-
  The reference's result, read off the fold of its operations.  The thirty-one operations are cut where the
  masked gather is complete: the first twenty-six leave `gsel x h z` in their last buffer and touch no argument;
  the last five (transpose, reshape, product with the weights, reshape, transpose) are `refOut w (cols ·)`.
  The fold of the whole line is the fold of the second part over the fold of the first, so the result buffer
  holds `refOut w (cols (gsel x h z))` of the four arguments, and each argument buffer what it held.
-/
import proofs.«118846_j86904368267933_2_alg».proof.Proof.RefRun
import proofs.«118846_j86904368267933_2_alg».proof.Proof.LibAfter
import proofs.«118846_j86904368267933_2_alg».proof.Proof.LibTRef

noncomputable section

namespace Cert.ReferenceIdeal.RefVal

open Cert.ReferenceIdeal Cert.ReferenceIdeal.Gen Idealize.ShloMosaic Idealize.ShloMosaic.TcCoe Idealize.SL.Sem
  Idealize.ShloMosaic.StableHlo

variable {F : FTy → Type} [FloatOps F]

/-- The operations up to and including the mask's select: they compute the masked gather. -/
abbrev opsG : List (HloOp τ sig (Elt F)) :=
  [ reshape main_arg0 main_v0 rfl shapeCasts_S16x64x64x64_S4194304,
    TRef.nullary main_call0.c (constantI S_ 32 0#32),
    TRef.unary main_call0.c main_call0.v0 (broadcastInDim S16x64x64x64x25 ![] bcast_S_S16x64x64x64x25),
    TRef.binary (.of main_arg1 : TRef sig ⟨S16x64x64x64x25, .i32⟩) main_call0.v0 main_call0.v1 (cmpi .slt),
    TRef.nullary main_call0.c_0 (constantI S_ 32 4194304#32),
    TRef.unary main_call0.c_0 main_call0.v2 (broadcastInDim S16x64x64x64x25 ![] bcast_S_S16x64x64x64x25),
    TRef.binary (.of main_arg1 : TRef sig ⟨S16x64x64x64x25, .i32⟩) main_call0.v2 main_call0.v3 addi,
    TRef.ternary main_call0.v1 main_call0.v3 (.of main_arg1 : TRef sig ⟨S16x64x64x64x25, .i32⟩) main_call0.call0.v0 select,
    TRef.unary main_call0.call0.v0 main_call0.v5 (broadcastInDim S16x64x64x64x25x1 ![0, 1, 2, 3, 4] bcast_S16x64x64x64x25_S16x64x64x64x25x1_0_1_2_3_4),
    TRef.nullary main_call0.c_1 (constantI S1 32 4194303#32),
    TRef.nullary main_call0.c_2 (constantI S_ 32 0#32),
    TRef.unary main_call0.c_2 main_call0.v6 (broadcastInDim S16x64x64x64x25x1 ![] bcast_S_S16x64x64x64x25x1),
    TRef.binary main_call0.v5 main_call0.v6 main_call0.v7 (cmpi .sge),
    TRef.unary main_call0.c_1 main_call0.v8 (broadcastInDim S1x1x1x1x1x1 ![5] bcast_S1_S1x1x1x1x1x1_5),
    TRef.unary main_call0.v8 main_call0.v9 (broadcastInDim S16x64x64x64x25x1 ![0, 1, 2, 3, 4, 5] bcast_S1x1x1x1x1x1_S16x64x64x64x25x1_0_1_2_3_4_5),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x64x64x64x25x1_S16x64x64x64x25_d5 h_S_),
    TRef.binary (.of main_v0 : TRef sig ⟨S4194304, .f32⟩) main_call0.v5 main_call0.v13 (fun x i => Host.gather gather_S4194304_S16x64x64x64x25x1_S16x64x64x64x25_n_0_n_n_0_5_1 x i),
    TRef.nullary main_call0.cst (constant S_ .f32 0x7FC00000#32),
    TRef.unary main_call0.cst main_call0.v14 (broadcastInDim S16x64x64x64x25 ![] bcast_S_S16x64x64x64x25),
    TRef.ternary main_call0.v12 main_call0.v13 main_call0.v14 main_call0.v15 select,
    nullary main_cst (constant S_ .f32 0x00000000#32),
    TRef.unary (.of main_cst : TRef sig ⟨S_, .f32⟩) main_call1.v0 (broadcastInDim S16x64x64x64x25 ![] bcast_S_S16x64x64x64x25),
    TRef.ternary (.of main_arg2 : TRef sig ⟨S16x64x64x64x25, .i1⟩) main_call1.v0 (.of main_v1 : TRef sig ⟨S16x64x64x64x25, .f32⟩) main_call1.v1 select ]

/-- The operations after it: the layout for the product, the product, the layout of the result. -/
abbrev opsT : List (HloOp τ sig (Elt F)) :=
  [ unary main_v2 main_v3 ((transpose S64x25x16x64x64 [1, 4, 0, 2, 3] · transposes_S16x64x64x64x25_S64x25x16x64x64_1_4_0_2_3) : (⟨S16x64x64x64x25, .f32⟩ : BufTy).Contents (Elt F) → (⟨S64x25x16x64x64, .f32⟩ : BufTy).Contents (Elt F)),
    reshape main_v3 main_v4 rfl shapeCasts_S64x25x16x64x64_S1600x65536,
    binary main_arg3 main_v4 main_v5 ((fun l r => Host.dotGeneral dot_S256x1600_S1600x65536_S256x65536_1_0_0_1_n_n none l r) : (⟨S256x1600, .f32⟩ : BufTy).Contents (Elt F) → (⟨S1600x65536, .f32⟩ : BufTy).Contents (Elt F) → (⟨S256x65536, .f32⟩ : BufTy).Contents (Elt F)),
    reshape main_v5 main_v6 rfl shapeCasts_S256x65536_S256x16x64x64,
    unary main_v6 main_v7 ((transpose S16x256x64x64 [1, 0, 2, 3] · transposes_S256x16x64x64_S16x256x64x64_1_0_2_3) : (⟨S256x16x64x64, .f32⟩ : BufTy).Contents (Elt F) → (⟨S16x256x64x64, .f32⟩ : BufTy).Contents (Elt F)) ]

/-- The line is the two parts one after the other. -/
theorem ops_split : (ops : List (HloOp τ sig (Elt F))) = opsG ++ opsT := rfl

/-! ## The second part -/

/-- After the last five operations the result buffer holds `refOut` of the weights and of the laid-out contents of
    the buffer the masked gather was left in. -/
theorem tail_v7 (V : Valuation τ sig (Elt F)) :
    after opsT V (main_v7 : DevRef τ sig) = refOut (V (main_arg3 : DevRef τ sig)) (cols (V (main_v2 : DevRef τ sig))) := by
  unfold refOut cols
  after_results
  rfl

/-! ## The first part -/

attribute [local irreducible] Host.reduce Host.gather in
/-- After the first twenty-six operations their last buffer holds the masked gather of the first three arguments. -/
theorem head_v2 (V : Valuation τ sig (Elt F)) :
    after opsG V (main_v2 : DevRef τ sig)
      = gsel (V (main_arg0 : DevRef τ sig)) (V (main_arg1 : DevRef τ sig)) (V (main_arg2 : DevRef τ sig)) := by
  unfold gsel
  after_results_simp
  simp only [TRef.ofBuf_toBuf]
  rfl

/-- They do not write the weights. -/
theorem head_arg3 (V : Valuation τ sig (Elt F)) : after opsG V (main_arg3 : DevRef τ sig) = V (main_arg3 : DevRef τ sig) := by
  after_results_simp

/-! ## The whole line -/

/-- The result buffer after the whole line. -/
theorem out_eq (V : Valuation τ sig (Elt F)) :
    after ops V (main_v7 : DevRef τ sig)
      = refOut (V (main_arg3 : DevRef τ sig))
          (cols (gsel (V (main_arg0 : DevRef τ sig)) (V (main_arg1 : DevRef τ sig)) (V (main_arg2 : DevRef τ sig)))) := by
  rw [ops_split, after_append, tail_v7, head_v2, head_arg3]

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- Every weakly fair execution of the reference's @main terminates, the result buffer at `refOut` of the weights and
    the laid-out masked gather of the other three arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = refOut (m ((c.tc : Thread nD τ).loc main_arg3))
              (cols (gsel (m ((c.tc : Thread nD τ).loc main_arg0)) (m ((c.tc : Thread nD τ).loc main_arg1))
                (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v7).trans (out_eq _), (h c main_arg0).trans (arg0_eq _),
      (h c main_arg1).trans (arg1_eq _), (h c main_arg2).trans (arg2_eq _), (h c main_arg3).trans (arg3_eq _)⟩)
    (run_fold m ρ)

end Cert.ReferenceIdeal.RefVal

end
-- ==== Proof.RefValue.lean ====
/-
  The reference's result is the specification.  At the ideal values, entry `(b, o, p, q)` of

      transpose (reshape (W · C))

  is entry `(o, b, p, q)` of the reshaped product (the transpose swaps the first two axes), which is entry
  `(o, b · 4096 + p · 64 + q)` of the product (a reshape keeps the row-major position), which is the sum over
  `k` of `W (o, k) · C (k, b · 4096 + p · 64 + q)`.
-/
import proofs.«118846_j86904368267933_2_alg».proof.Proof.RefRun
import proofs.«118846_j86904368267933_2_alg».proof.Proof.Spec
import proofs.«118846_j86904368267933_2_alg».proof.Proof.LibDotRows
import Idealize.ShloMosaic.Lib.Pipeline.Value

noncomputable section

open scoped BigOperators

namespace Cert.ReferenceIdeal.RefVal

open Cert.ReferenceIdeal Cert.ReferenceIdeal.Gen Idealize.ShloMosaic Idealize.ShloMosaic.ValueIdx Cert.HashConv

/-- The reference's result of weights `w` and laid-out values `cl`, at the ideal values, is `outSpec w cl`. -/
theorem refOut_eq (w : FVec Ideal S256x1600 .f32) (cl : FVec Ideal S1600x65536 .f32) :
    refOut (F := Ideal) w cl = outSpec w cl := by
  funext i
  obtain ⟨b, o, p, q, rfl⟩ : ∃ (b : Fin 16) (o : Fin 256) (p : Fin 64) (q : Fin 64), i = ix4 b o p q :=
    ⟨i 0, i 1, i 2, i 3, eq_ix4 i⟩
  rw [outSpec_ix4]
  unfold refOut outAt
  -- the transpose: result axes (batch, channel, row, column) are source axes (1, 0, 2, 3)
  refine (transpose_apply _ _ _ (ix4 b o p q) (ix4 o b p q) ?_).trans ?_
  · intro a
    match a with
    | ⟨0, _⟩ => rfl
    | ⟨1, _⟩ => rfl
    | ⟨2, _⟩ => rfl
    | ⟨3, _⟩ => rfl
  -- the reshape: (o, b, p, q) of [256, 16, 64, 64] sits at the row-major position of (o, b·4096 + p·64 + q) of [256, 65536]
  refine (shapeCast_apply _ _ (ix4 o b p q) (ix2 o (colOf b p q)) ?_).trans ?_
  · rw [Shape.rowMajor_val_two, Shape.rowMajor_val_four]
    show o.val * 65536 + (b.val * 4096 + p.val * 64 + q.val) = ((o.val * 16 + b.val) * 64 + p.val) * 64 + q.val
    omega
  -- the product
  exact dotGeneral_rows dot_S256x1600_S1600x65536_S256x65536_1_0_0_1_n_n none .single rfl rfl
    (fun _ _ => rfl) (fun _ _ => rfl) (fun _ _ => rfl) (fun _ _ => rfl) w cl o (colOf b p q)

end Cert.ReferenceIdeal.RefVal

end
-- ==== Proof.Bridge.lean ====
/-
  The two programs meet.  Both end at the specification `outSpec W C`: the idealized kernel with `C` the masked
  gather laid out after a change of float format, the reference with `C` the masked gather laid out directly.  At
  the ideal values a change of float format is the identity, and the masked gather is the same operations applied
  to the same arguments in both programs, so the two arrays `C` are one array — and the results are equal, with no
  assumption on the inputs: the kernel's tiling of the product and the reference's transposition of its result only
  re-index one and the same sum.
-/
import proofs.«118846_j86904368267933_2_alg».proof.Defs
import proofs.«118846_j86904368267933_2_alg».proof.Proof.Gen.Kernel.Frame
import proofs.«118846_j86904368267933_2_alg».proof.Proof.Gen.Pre_finite_inputs
import proofs.«118846_j86904368267933_2_alg».proof.Proof.KernelRun
import proofs.«118846_j86904368267933_2_alg».proof.Proof.RefRead
import proofs.«118846_j86904368267933_2_alg».proof.Proof.RefValue

noncomputable section

namespace Cert.Proof.Bridge

open Idealize.ShloMosaic Idealize.SL.Sem Cert.HashConv

attribute [local irreducible] Host.reduce Host.gather in
/-- The laid-out masked gather of the kernel's program is the reference's. -/
theorem cols_eq (x : (⟨Cert.KernelIdeal.S16x64x64x64, .f32⟩ : BufTy).Contents (Elt Ideal))
    (h : (⟨Cert.KernelIdeal.S16x64x64x64x25, .i32⟩ : BufTy).Contents (Elt Ideal))
    (z : (⟨Cert.KernelIdeal.S16x64x64x64x25, .i1⟩ : BufTy).Contents (Elt Ideal)) :
    Cert.KernelIdeal.KVal.cols (F := Ideal) (Cert.KernelIdeal.KVal.gsel x h z)
      = Cert.ReferenceIdeal.RefVal.cols (F := Ideal) (Cert.ReferenceIdeal.RefVal.gsel x h z) := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefVal.run (F := Ideal) m ρ)

/-- From memories agreeing on the four arguments both programs end with the specification of the weights and the
    laid-out masked gather in their result buffers. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefVal.run (F := Ideal) m' ρ')
  rw [(hagree c).1, (hagree c).2.1, (hagree c).2.2.1, (hagree c).2.2.2, Cert.ReferenceIdeal.RefVal.refOut_eq]
  exact congrArg (outSpec _) (cols_eq _ _ _).symm

end Cert.Proof.Bridge

end
-- ==== Proof.lean ====
/- The proof of `Cert.Claim`.  The kernel computes a hash-indexed convolution as one matrix product: the input is
   gathered at a table of flat indices and masked (plain host operations), laid out as a [1600, 65536] matrix, and
   multiplied by the [256, 1600] weights block by block on a 16 × 2 grid; the reference performs the same gather and
   one whole product, then transposes.  Proof/Spec.lean states the common result as one function; Proof/KernelBlock,
   KernelArray and KernelRun show the idealized kernel ends at it (the frames are the generated ones), Proof/RefRun,
   RefRead and RefValue that the reference does, and Proof/Bridge.lean joins them.  The idealization rewrote no
   operation, so `preserves` is trivial. -/
import proofs.«118846_j86904368267933_2_alg».proof.Defs
import proofs.«118846_j86904368267933_2_alg».proof.Proof.Bridge
import proofs.«118846_j86904368267933_2_alg».proof.Proof.Gen.Kernel
import proofs.«118846_j86904368267933_2_alg».proof.Proof.Gen.Kernel.Frame
import proofs.«118846_j86904368267933_2_alg».proof.Proof.Gen.KernelIdeal
import proofs.«118846_j86904368267933_2_alg».proof.Proof.Gen.KernelIdeal.Frame
import proofs.«118846_j86904368267933_2_alg».proof.Proof.Gen.ReferenceIdeal
import proofs.«118846_j86904368267933_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, trivial, Bridge.algebraic⟩

end Cert.Proof

end
